-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S640000 : Shape := ⟨1, ![640000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S2x640000 32) (main_arg2 : FVec F S640000 .f32) (main_arg3 : FVec F S100000x128 .f32) (main_arg4 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S100000x128 .f32 := Host.absf main_arg3
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S2x640000 : Shape := ⟨2, ![2, 640000]⟩
abbrev S640000 : Shape := ⟨1, ![640000]⟩
abbrev S128x128 : Shape := ⟨2, ![128, 128]⟩
abbrev S1x640000 : Shape := ⟨2, ![1, 640000]⟩
abbrev S640000x1 : Shape := ⟨2, ![640000, 1]⟩
abbrev S_ : Shape := ⟨0, ![]⟩
abbrev S640000x128 : Shape := ⟨2, ![640000, 128]⟩
abbrev S4000x128 : Shape := ⟨2, ![4000, 128]⟩

abbrev nBuf : Space → Nat
  | .hbm => 26
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S640000, .f32⟩
  | .hbm, ⟨3, _⟩ => ⟨S100000x128, .f32⟩
  | .hbm, ⟨4, _⟩ => ⟨S128x128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S640000x1, .f32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S640000x128, .f32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S4000x128, .f32⟩
  | .local _ .vmem, ⟨6, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v16) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S640000 : Shape := ⟨1, ![640000]⟩
abbrev S128x128 : Shape := ⟨2, ![128, 128]⟩
abbrev S1x640000 : Shape := ⟨2, ![1, 640000]⟩
abbrev S640000x1 : Shape := ⟨2, ![640000, 1]⟩
abbrev S_ : Shape := ⟨0, ![]⟩
abbrev S640000x128 : Shape := ⟨2, ![640000, 128]⟩

abbrev nBuf : Space → Nat
  | .hbm => 40
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S640000, .f32⟩
  | .hbm, ⟨3, _⟩ => ⟨S100000x128, .f32⟩
  | .hbm, ⟨4, _⟩ => ⟨S128x128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S640000x1, .f32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S640000x128, .f32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S_, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S100000x128, .f32⟩
  | .hbm, ⟨39, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  One dense step of a graph-convolution layer with an initial residual, as ONE function of its three arrays.

  Given the aggregated node features `hid` [100000, 128], the initial node features `init` [100000, 128] and a
  weight matrix `w` [128, 128], the step first mixes the two feature arrays entry by entry,
      mix h x = c₉ · h + c₁ · x        (c₉, c₁ the binary32 numbers nearest 9/10 and 1/10),
  and then returns, at row p and column q,
      ½ · Σ_j mix (hid p j) (init p j) · w j q  +  ½ · mix (hid p q) (init p q).
  Row p of the result depends on row p of the two feature arrays only: cutting the rows into tiles and computing
  tile by tile changes nothing, and the sum over j has the same 128 terms in the same order however the rows are
  tiled. All arithmetic is on the extended reals; the three constants are kept as the words the programs print and
  are never evaluated.
-/
import Idealize.ShloMosaic.Lib.ValueIdx
import Idealize.ShloMosaic.PureOps.Ideal.Laws

noncomputable section

open scoped BigOperators

namespace Cert.Dense

open Idealize.ShloMosaic Idealize.ShloMosaic.ValueIdx

/-- The shape of a node-feature array, of one tile of 4000 of its rows, and of the weight matrix. -/
abbrev SNodes : Shape := ⟨2, ![100000, 128]⟩
abbrev STile : Shape := ⟨2, ![4000, 128]⟩
abbrev SWeight : Shape := ⟨2, ![128, 128]⟩

/-- The convex combination of an aggregated feature and an initial feature. -/
def mix (h x : EReal) : EReal :=
  Ideal.ofBits .f32 0x3F666666#32 * h + Ideal.ofBits .f32 0x3DCCCCCD#32 * x

/-- One entry of the step from the data it depends on: the mixed row (given by its two source rows), the weight
    column, and the two source entries at the output position. -/
def entry (hrow xrow wcol : Fin 128 → EReal) (h x : EReal) : EReal :=
  Ideal.ofBits .f32 0x3F000000#32 * (∑ j : Fin 128, mix (hrow j) (xrow j) * wcol j)
    + Ideal.ofBits .f32 0x3F000000#32 * mix h x

/-- The whole step: entry (p, q) is `entry` of row p of the two feature arrays and column q of the weights. -/
def dense (hid init : FVec Ideal SNodes .f32) (w : FVec Ideal SWeight .f32) : FVec Ideal SNodes .f32 := fun i =>
  entry (fun j => hid (ix2 (i 0) j)) (fun j => init (ix2 (i 0) j)) (fun j => w (ix2 j (i 1))) (hid i) (init i)

end Cert.Dense

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.LibIdealBits.lean ====
import Idealize.ShloMosaic.PureOps.Ideal
import Idealize.ShloMosaic.PureOps.Ideal.Laws
import Idealize.ShloMosaic.Lib.ValueIdx

/-! # Small general facts at the exact instance

* A scalar float literal, and the integer-to-float conversions, read at the exact instance — each stated for a
  VARIABLE word, so that rewriting with them never makes Lean evaluate a particular float literal (comparing
  `Scalar.ofBits .f32 w` with `Ideal.ofBits .f32 w` by unfolding, at a literal `w`, can run out of memory).
* A comparison bit widened to 32 bits and converted as a SIGNED integer (a kernel's `(cond).astype(float32)`:
  `arith.extui` then `arith.sitofp`) is the bit converted as an UNSIGNED integer (the host's `convert` of an i1):
  both are the number 0 or 1.
* A sum over a rank-1 index set is the sum over its one coordinate. -/

noncomputable section

namespace Cert.LibIdealBits

open Idealize.ShloMosaic Idealize.ShloMosaic.ValueIdx

/-- A scalar literal at the exact instance is the instance's reading of its word. -/
theorem scalar_ofBits (φ : FTy) (b : BitVec φ.bits) : Scalar.ofBits (F := Ideal) φ b = Ideal.ofBits φ b := rfl

/-- A signed integer converted to a float at the exact instance is that integer. -/
theorem sitofp_ideal {w : Nat} (b : BitVec w) : FloatOps.sitofp (F := Ideal) .f32 b = (((b.toInt : ℝ)) : EReal) := rfl

/-- An unsigned integer converted to a float at the exact instance is that number. -/
theorem uitofp_ideal {w : Nat} (b : BitVec w) : FloatOps.uitofp (F := Ideal) .f32 b = (((b.toNat : ℝ)) : EReal) := rfl

/-- A bit widened to 32 bits and read as a signed integer is the bit read as a natural number: both are 0 or 1. -/
theorem bit_signed_eq_unsigned (b : BitVec 1) : (((b.setWidth 32).toInt : ℝ) : EReal) = (((b.toNat : ℝ)) : EReal) := by
  have h : (b.setWidth 32).toInt = (b.toNat : ℤ) := by
    rcases BitVec.eq_zero_or_eq_one b with h | h <;> subst h <;> decide
  rw [h, Int.cast_natCast]

/-- So widening a bit and converting it signed is converting it unsigned. -/
theorem sitofp_extui_bit (b : BitVec 1) :
    FloatOps.sitofp (F := Ideal) .f32 (b.setWidth 32) = FloatOps.uitofp (F := Ideal) .f32 b := by
  rw [sitofp_ideal, uitofp_ideal, bit_signed_eq_unsigned]

/-- A rank-1 index set is its one coordinate's range … -/
def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

end Cert.LibIdealBits

end
-- ==== Proof.Payload.lean ====
/-
  The kernel body's stored value, one entry at a time. On a tile of 4000 rows the body mixes the aggregated tile
  with the initial tile entry by entry (0.9 · hidden + 0.1 · init), multiplies the mixed tile by the whole weight
  matrix on the matrix unit (the narrowing of both operands to a 16-bit format is the identity on exact values, and
  the product accumulates into zeros), and stores ½ · product + ½ · mixed. At row a and column b of the tile that is
  `Cert.Dense.entry` of row a of the two tiles, column b of the weights, and the two tile entries at (a, b): the
  matrix product read at (a, b) is the sum over j of the mixed entry (a, j) times weight (j, b).
-/
import proofs.«182245_j29145648071321_1_alg».proof.Proof.Gen.KernelIdeal.Skeleton
import proofs.«182245_j29145648071321_1_alg».proof.Proof.Spec
import proofs.«182245_j29145648071321_1_alg».proof.Proof.LibMatmul
import proofs.«182245_j29145648071321_1_alg».proof.Proof.LibIdealBits
import Idealize.ShloMosaic.Lib.Pipeline.Value

noncomputable section

open scoped BigOperators

namespace Cert.KernelIdeal.Hand

open Cert.KernelIdeal Cert.KernelIdeal.Gen Idealize.ShloMosaic Idealize.ShloMosaic.ValueIdx

/-- The body's stored tile at (a, b), from the three loaded blocks. -/
theorem pay_apply (x0 x1 : Vec Ideal S4000x128 .f32) (x2 : Vec Ideal S128x128 .f32) (a : Fin 4000) (b : Fin 128) :
    k0_pay1 (F := Ideal) x0 x1 x2 (ix2 a b)
      = Cert.Dense.entry (fun j => x0 (ix2 a j)) (fun j => x1 (ix2 a j)) (fun j => x2 (ix2 j b)) (x0 (ix2 a b)) (x1 (ix2 a b)) := by
  unfold k0_pay1
  rw [shapeCast_self]
  simp only [addf_apply, mulf_apply, broadcast_apply, matmul,
    matmul_zero_ix2 dot_S4000x128_S128x128_S4000x128_1_0_0_1_n_n rfl rfl rfl rfl rfl rfl, truncf_apply,
    Ideal.ofBits_def, Cert.LibIdealBits.scalar_ofBits, Cert.Dense.entry, Cert.Dense.mix]

end Cert.KernelIdeal.Hand

end
-- ==== Proof.Hidden.lean ====
/-
  The aggregated array the kernel's region finds. Before the region the kernel's program runs, on the host, the
  same twenty operations the reference starts with: the two index rows are sliced out of the edge list, negative
  column indices are wrapped by the node count, the source rows are gathered, scaled by the edge weights, and
  scatter-added into zeros at the destination rows. Reading the host operations back one by one, the array that
  window 0 of the region stages is therefore the reference's own aggregation stage applied to the kernel's
  argument arrays — the same term, which is never opened.
-/
import proofs.«182245_j29145648071321_1_alg».proof.Proof.Gen.KernelIdeal.Frame
import proofs.«182245_j29145648071321_1_alg».proof.Proof.Gen.ReferenceIdeal.Read
import Idealize.ShloMosaic.Lib.StableHlo.Run

noncomputable section

open Idealize.ShloMosaic Idealize.ShloMosaic.TcCoe Idealize.SL.Sem Idealize.ShloMosaic.StableHlo

namespace Cert.KernelIdeal.Hand

open Cert.KernelIdeal Cert.KernelIdeal.Gen

variable (m : (ℓ : Loc nD τ sig) → Buf (Elt Ideal) ℓ)

set_option maxHeartbeats 2000000 in
/-- On entry to the region the aggregated array is the reference's aggregation stage of the node features, the edge
    list and the edge weights as launched. -/
theorem V_hidden (c : Dev nD) :
    (V m c main_v16 : S100000x128.Idx → EReal)
      = Cert.ReferenceIdeal.Read.val_main_v16 (F := Ideal) (m ((c : Thread nD τ).loc main_arg0))
          (m ((c : Thread nD τ).loc main_arg1)) (m ((c : Thread nD τ).loc main_arg2)) := by
  dsimp only [Gen.V, Gen.hostOps0]
  after_results_simp
  rfl

end Cert.KernelIdeal.Hand

end
-- ==== Proof.Blocks.lean ====
/-
  From tiles to the whole array. The region's grid has 25 points; at point t the aggregated window and the initial
  window each stage rows 4000 t … 4000 t + 3999 of their arrays, the weight window stages the whole matrix, and the
  output window writes back rows 4000 t … 4000 t + 3999. Since an entry of the dense step depends on its own row of
  the two feature arrays only, what point t writes back is block t of `Cert.Dense.dense` of the three arrays as the
  region finds them; the 25 blocks cover all 100000 rows (row r lies in block r / 4000), so after the run the
  output array is that function, and with the aggregated array read back as the reference's aggregation stage and
  the two untouched arguments as launched, the kernel's run ends at the dense step of the launch contents.
-/
import proofs.«182245_j29145648071321_1_alg».proof.Proof.Gen.KernelIdeal.Value
import proofs.«182245_j29145648071321_1_alg».proof.Proof.Payload
import proofs.«182245_j29145648071321_1_alg».proof.Proof.Hidden
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-- The four index maps over the grid: the two feature windows and the output window sit at block row t, block
    column 0; the weight window stays at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0)

/-- The aggregated window's block at point t holds rows 4000 t … of the aggregated array. -/
theorem blk0_apply (c : Dev nD) (t : Fin cfg0.N) (y : S4000x128.Idx) (i : S100000x128.Idx)
    (h0 : (i 0).val = t.val * 4000 + (y 0).val) (h1 : (i 1).val = (y 1).val) :
    (iblk m c 0 t : Vec Ideal S4000x128 .f32) y = V m c main_v16 i := by
  obtain ⟨e0, e1, -⟩ := idx_facts t
  unfold iblk
  rw [View.read_apply]
  show V m c main_v16 _ = V m c main_v16 i
  refine congrArg (V m c main_v16) ?_
  funext a
  apply Fin.ext
  match a with
  | ⟨0, _⟩ => show win0_0.index t (0 : Fin 2) * 4000 + 1 * (y 0).val = (i 0).val; omega
  | ⟨1, _⟩ => show win0_0.index t (1 : Fin 2) * 128 + 1 * (y 1).val = (i 1).val; omega

/-- The initial window's block at point t holds rows 4000 t … of the initial features. -/
theorem blk1_apply (c : Dev nD) (t : Fin cfg0.N) (y : S4000x128.Idx) (i : S100000x128.Idx)
    (h0 : (i 0).val = t.val * 4000 + (y 0).val) (h1 : (i 1).val = (y 1).val) :
    (iblk m c 1 t : Vec Ideal S4000x128 .f32) y = V m c main_arg3 i := by
  obtain ⟨-, -, e0, e1, -⟩ := idx_facts t
  unfold iblk
  rw [View.read_apply]
  show V m c main_arg3 _ = V m c main_arg3 i
  refine congrArg (V m c main_arg3) ?_
  funext a
  apply Fin.ext
  match a with
  | ⟨0, _⟩ => show win0_1.index t (0 : Fin 2) * 4000 + 1 * (y 0).val = (i 0).val; omega
  | ⟨1, _⟩ => show win0_1.index t (1 : Fin 2) * 128 + 1 * (y 1).val = (i 1).val; omega

/-- The weight window's block is the whole weight matrix at every point. -/
theorem blk2_apply (c : Dev nD) (t : Fin cfg0.N) (y : S128x128.Idx) :
    (iblk m c 2 t : Vec Ideal S128x128 .f32) y = V m c main_arg4 y := by
  obtain ⟨-, -, -, -, e0, e1, -⟩ := idx_facts t
  unfold iblk
  rw [View.read_apply]
  show V m c main_arg4 _ = V m c main_arg4 y
  refine congrArg (V m c main_arg4) ?_
  funext a
  apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The body's stored tile at point t, at the tile entry that sits at array index i, is the dense step of the three
    arrays at i. -/
theorem tile_eq (c : Dev nD) (t : Fin cfg0.N) (y : S4000x128.Idx) (i : S100000x128.Idx)
    (h0 : (i 0).val = t.val * 4000 + (y 0).val) (h1 : (i 1).val = (y 1).val) :
    k0_pay1 (F := Ideal) (iblk m c 0 t) (iblk m c 1 t) (iblk m c 2 t) y
      = Cert.Dense.dense (V m c main_v16) (V m c main_arg3) (V m c main_arg4) i := by
  obtain ⟨a, b, rfl⟩ : ∃ (a : Fin 4000) (b : Fin 128), y = ix2 a b := ⟨y 0, y 1, eq_ix2 y⟩
  obtain ⟨p, q, rfl⟩ : ∃ (p : Fin 100000) (q : Fin 128), i = ix2 p q := ⟨i 0, i 1, eq_ix2 i⟩
  have hp : p.val = t.val * 4000 + a.val := h0
  obtain rfl : q = b := Fin.ext h1
  refine (pay_apply (iblk m c 0 t) (iblk m c 1 t) (iblk m c 2 t) a q).trans ?_
  have e0 : ∀ j : Fin 128, (iblk m c 0 t : Vec Ideal S4000x128 .f32) (ix2 a j) = V m c main_v16 (ix2 p j) :=
    fun j => blk0_apply m c t (ix2 a j) (ix2 p j) hp rfl
  have e1 : ∀ j : Fin 128, (iblk m c 1 t : Vec Ideal S4000x128 .f32) (ix2 a j) = V m c main_arg3 (ix2 p j) :=
    fun j => blk1_apply m c t (ix2 a j) (ix2 p j) hp rfl
  have e2 : ∀ j : Fin 128, (iblk m c 2 t : Vec Ideal S128x128 .f32) (ix2 j q) = V m c main_arg4 (ix2 j q) :=
    fun j => blk2_apply m c t (ix2 j q)
  show Cert.Dense.entry _ _ _ _ _
    = Cert.Dense.entry (fun j => V m c main_v16 (ix2 p j)) (fun j => V m c main_arg3 (ix2 p j))
        (fun j => V m c main_arg4 (ix2 j q)) (V m c main_v16 (ix2 p q)) (V m c main_arg3 (ix2 p q))
  rw [funext e0, funext e1, funext e2, e0 q, e1 q]

/-- What point t writes back is block t of the dense step of the three arrays as the region finds them. -/
theorem flushed_eq (c : Dev nD) (t : Fin cfg0.N) :
    (dats m 0 c).flushed 3 t
      = ((cfg0.win 3).blk t).view.read (Elt Ideal) (Cert.Dense.dense (V m c main_v16) (V m c main_arg3) (V m c main_arg4)) := by
  obtain ⟨-, -, -, -, -, -, e0, e1⟩ := idx_facts t
  rw [Value.flushed3]
  unfold out0_3
  rw [View.canon_unit_zero hz]
  simp only [View.ld_unit_zero (S := S4000x128) hz, View.ld_unit_zero (S := S128x128) hz]
  funext y
  show k0_pay1 (F := Ideal) (iblk m c 0 t) (iblk m c 1 t) (iblk m c 2 t) y
    = Cert.Dense.dense (V m c main_v16) (V m c main_arg3) (V m c main_arg4) (((cfg0.win 3).blk t).view.emb y)
  refine tile_eq m c t y _ ?_ ?_
  · show win0_3.index t (0 : Fin 2) * 4000 + 1 * (y 0).val = t.val * 4000 + (y 0).val; omega
  · show win0_3.index t (1 : Fin 2) * 128 + 1 * (y 1).val = (y 1).val; omega

/-- An index of the array is in point t's output block iff each coordinate is in the block's range on its axis. -/
theorem mem_blk (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v17).slice (win0_3.rect t)).set ↔ _
  rw [View.set_slice_whole, Rect.mem_set_unit]
  exact Iff.rfl

/-- Every index of the output array is in some point's block: row r is in block r / 4000. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have ht : (i 0).val / 4000 < cfg0.N := Nat.lt_of_lt_of_eq (by omega : (i 0).val / 4000 < 25) N_0.symm
  obtain ⟨-, -, -, -, -, -, e0, e1⟩ := idx_facts ⟨(i 0).val / 4000, ht⟩
  refine ⟨⟨(i 0).val / 4000, ht⟩, flush0_3 _, ?_⟩
  rw [mem_blk]
  intro a
  match a with
  | ⟨0, _⟩ =>
    show win0_3.index ⟨(i 0).val / 4000, ht⟩ (0 : Fin 2) * 4000 ≤ (i 0).val
      ∧ (i 0).val < win0_3.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_3.index ⟨(i 0).val / 4000, ht⟩ (1 : Fin 2) * 128 ≤ (i 1).val
      ∧ (i 1).val < win0_3.index ⟨(i 0).val / 4000, ht⟩ (1 : Fin 2) * 128 + 128
    rw [e1]; omega

/-- So after the run the output array is the dense step of the three arrays as the region finds them. -/
theorem final (c : Dev nD) :
    (dats m 0 c).arrAt 3 cfg0.N = Cert.Dense.dense (V m c main_v16) (V m c main_arg3) (V m c main_arg4) :=
  (dats m 0 c).arrAt_eq_of_cover 3 _ (fun t _ => flushed_eq m c t) covered

/-- The kernel's run, read: the result array ends at the dense step of the aggregation stage of the launch contents,
    the initial features and the weights; the arguments are unchanged. -/
theorem run : θ_run defs (onTc (τ := τ) (main (F := Ideal))) ⟨m, fun _ => 0, ρ⟩ fun r => ∀ c : Dev nD,
      r.2.mem ((c : Thread nD τ).loc main_v17)
        = Cert.Dense.dense
            (Cert.ReferenceIdeal.Read.val_main_v16 (F := Ideal) (m ((c : Thread nD τ).loc main_arg0))
              (m ((c : Thread nD τ).loc main_arg1)) (m ((c : Thread nD τ).loc main_arg2)))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (by
      rw [V_hidden m c, V_main_arg3 m c, V_main_arg4 m c])), (h c).2⟩)
    (Value.run_blocks m ρ)

end Cert.KernelIdeal.Hand

end
-- ==== Proof.RefDense.lean ====
/-
  The reference program computes the dense step. Its host operations after the aggregation are, in order: the
  convex combination 0.9 · hidden + 0.1 · init_x (two scalings by broadcast constants and a sum), the product of
  that mixed array with the weight matrix, and ½ · product + ½ · mixed. Read one entry at a time, the mixed array
  at (p, j) is `mix (hidden p j) (init_x p j)`, the matrix product at (p, q) is the sum over j of the mixed entry
  (p, j) times weight (j, q), and the result is `Cert.Dense.dense` of the aggregated array, the initial features and
  the weights. The aggregated array itself — the gather, the scaling by the edge weights and the scatter-add — is
  carried as one unopened term, the stage `val_main_v16`.
-/
import proofs.«182245_j29145648071321_1_alg».proof.Proof.Gen.ReferenceIdeal.Read
import proofs.«182245_j29145648071321_1_alg».proof.Proof.Spec

noncomputable section

open scoped BigOperators

namespace Cert.ReferenceIdeal.Hand

open Cert.ReferenceIdeal Cert.ReferenceIdeal.Read Idealize.ShloMosaic Idealize.ShloMosaic.ValueIdx

/-- The matrix product reads its left operand along row `i 0` … -/
theorem lidx_eq (i : S100000x128.Idx) (k : Fin 128) : lidx_main_v22 i k = ix2 (i 0) k :=
  funext fun a => Fin.ext (by match a with | ⟨0, _⟩ => rfl | ⟨1, _⟩ => rfl)

/-- … and its right operand along column `i 1`. -/
theorem ridx_eq (i : S100000x128.Idx) (k : Fin 128) : ridx_main_v22 i k = ix2 k (i 1) :=
  funext fun a => Fin.ext (by match a with | ⟨0, _⟩ => rfl | ⟨1, _⟩ => rfl)

/-- The mixed array, one entry at a time: the two scalings and the sum are `mix` of the aggregated entry and the
    initial entry. -/
theorem mixed_apply (x0 : (⟨S100000x128, .f32⟩ : BufTy).Contents (Elt Ideal)) (x1 : (⟨S2x640000, .i32⟩ : BufTy).Contents (Elt Ideal))
    (x2 : (⟨S640000, .f32⟩ : BufTy).Contents (Elt Ideal)) (x3 : (⟨S100000x128, .f32⟩ : BufTy).Contents (Elt Ideal)) (i : S100000x128.Idx) :
    val_main_v21 (F := Ideal) x0 x1 x2 x3 i = Cert.Dense.mix (val_main_v16 (F := Ideal) x0 x1 x2 i) (x3 i) := by
  rw [val_main_v21_apply, val_main_v18_apply, val_main_v20_apply, val_main_v17_apply, val_main_v19_apply,
    val_main_cst_1_apply, val_main_cst_2_apply]
  simp only [Ideal.mulf_def, Ideal.addf_def, Ideal.ofBits_def, Cert.Dense.mix]

/-- The same as an equation between arrays: rewriting with it does not have to match an index. -/
theorem mixed_eq (x0 : (⟨S100000x128, .f32⟩ : BufTy).Contents (Elt Ideal)) (x1 : (⟨S2x640000, .i32⟩ : BufTy).Contents (Elt Ideal))
    (x2 : (⟨S640000, .f32⟩ : BufTy).Contents (Elt Ideal)) (x3 : (⟨S100000x128, .f32⟩ : BufTy).Contents (Elt Ideal)) :
    val_main_v21 (F := Ideal) x0 x1 x2 x3 = fun i => Cert.Dense.mix (val_main_v16 (F := Ideal) x0 x1 x2 i) (x3 i) :=
  funext fun i => mixed_apply x0 x1 x2 x3 i

/-- The reference's result is the dense step of its aggregated array, the initial features and the weights. -/
theorem result_eq_dense (x0 : (⟨S100000x128, .f32⟩ : BufTy).Contents (Elt Ideal)) (x1 : (⟨S2x640000, .i32⟩ : BufTy).Contents (Elt Ideal))
    (x2 : (⟨S640000, .f32⟩ : BufTy).Contents (Elt Ideal)) (x3 : (⟨S100000x128, .f32⟩ : BufTy).Contents (Elt Ideal))
    (x4 : (⟨S128x128, .f32⟩ : BufTy).Contents (Elt Ideal)) :
    val_main_v27 (F := Ideal) x0 x1 x2 x3 x4 = Cert.Dense.dense (val_main_v16 (F := Ideal) x0 x1 x2) x3 x4 := by
  funext i
  rw [val_main_v27_apply, val_main_v24_apply, val_main_v26_apply, val_main_v22_apply, val_main_v23_apply,
    val_main_v25_apply, val_main_cst_3_apply, val_main_cst_4_apply, mixed_eq]
  simp only [lidx_eq, ridx_eq, Ideal.mulf_def, Ideal.addf_def, Ideal.ofBits_def, Cert.Dense.dense,
    Cert.Dense.entry]
  rfl

end Cert.ReferenceIdeal.Hand

end
-- ==== Proof.Claims.lean ====
/-
  The five claims. The two kernel programs' frames are their generated frame runs, and the reference's frame is its
  generated run with the result dropped. The idealized kernel is the kernel's own text read on the extended reals,
  so there is nothing to preserve. For the value claim, the kernel's result array ends at the dense step of the
  reference's aggregation stage of the launch contents, the initial features and the weights (the tile-by-tile run
  assembled over the 25 row blocks); the reference's result is the same function of its own launch contents (its
  last eleven host operations read entry by entry); and the two launch memories agree on the five arguments. No
  property of the inputs is used: both sides add the same 128 products in the same order.
-/
import proofs.«182245_j29145648071321_1_alg».proof.Defs
import proofs.«182245_j29145648071321_1_alg».proof.Proof.Gen.Kernel.Frame
import proofs.«182245_j29145648071321_1_alg».proof.Proof.Gen.KernelIdeal.Frame
import proofs.«182245_j29145648071321_1_alg».proof.Proof.Gen.ReferenceIdeal.Run
import proofs.«182245_j29145648071321_1_alg».proof.Proof.Gen.ReferenceIdeal.Read
import proofs.«182245_j29145648071321_1_alg».proof.Proof.Gen.Pre_finite_inputs
import proofs.«182245_j29145648071321_1_alg».proof.Proof.Blocks
import proofs.«182245_j29145648071321_1_alg».proof.Proof.RefDense

noncomputable section

open Idealize.ShloMosaic Idealize.ShloMosaic.TcCoe Idealize.SL.Sem

namespace Cert.Proof.Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the dense step of the same aggregated array, initial features and weights. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.Hand.result_eq_dense,
    (hagree c).1, (hagree c).2.1, (hagree c).2.2.1, (hagree c).2.2.2.1, (hagree c).2.2.2.2]

end Cert.Proof.Claims

end
-- ==== Proof.lean ====
/-
  A graph-convolution layer with an initial residual: the node features are aggregated over the edges (gather the
  source rows, scale by the edge weights, scatter-add at the destination rows), mixed with the initial features as
  0.9 · hidden + 0.1 · init_x, and passed through the dense step ½ · (mixed · weight) + ½ · mixed. The kernel
  leaves the aggregation to the same host operations the reference uses and computes the mix and the dense step
  on the device, 4000 rows at a time; the reference computes them on whole arrays. On the extended reals the two
  results are equal entry by entry, because row p of the result depends on row p of the inputs only and the matrix
  product's sum has the same terms in the same order however the rows are tiled.

  Proof/Spec.lean states the dense step as one function; Proof/Payload.lean reads the device body's stored tile
  at an entry; Proof/Hidden.lean reads the aggregated array the region finds; Proof/Blocks.lean assembles the 25
  written-back blocks into the whole array and restates the kernel's run; Proof/RefDense.lean reads the
  reference's result; Proof/Claims.lean proves the five claims, which are assembled here behind the witnesses of
  the programs' stated side conditions.
-/
import proofs.«182245_j29145648071321_1_alg».proof.Defs
import proofs.«182245_j29145648071321_1_alg».proof.Proof.Claims
import proofs.«182245_j29145648071321_1_alg».proof.Proof.Gen.Kernel
import proofs.«182245_j29145648071321_1_alg».proof.Proof.Gen.KernelIdeal
import proofs.«182245_j29145648071321_1_alg».proof.Proof.Gen.ReferenceIdeal
import proofs.«182245_j29145648071321_1_alg».proof.Proof.Gen.Pre_finite_inputs
import proofs.«182245_j29145648071321_1_alg».proof.Proof.Gen.KernelIdeal.Value
import proofs.«182245_j29145648071321_1_alg».proof.Proof.Gen.ReferenceIdeal.Run
import proofs.«182245_j29145648071321_1_alg».proof.Proof.Gen.ReferenceIdeal.Read
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
